-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x256 .f32) (main_arg1 : FVec F S200000x256 .f32) (main_arg2 : FVec F S256x128 .f32) (main_arg3 : FVec F S128 .f32) (main_arg4 : FVec F S256x128 .f32) (main_arg5 : FVec F S128 .f32) (main_arg6 : IVec S600000 32) (main_arg7 : IVec S600000 32) (main_arg8 : IVec S600000 32) (main_arg9 : IVec S600000 32) (main_arg10 : IVec S600000 32) (main_arg11 : IVec S600000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S1x128 : Shape := ⟨2, ![1, 128]⟩
abbrev S200000x128 : Shape := ⟨2, ![200000, 128]⟩
abbrev S8000x256 : Shape := ⟨2, ![8000, 256]⟩
abbrev S8000x128 : Shape := ⟨2, ![8000, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩

abbrev nBuf : Space → Nat
  | .hbm => 120
  | .vmem => 12
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S1x128, .f32⟩
  | .hbm, ⟨13, _⟩ => ⟨S200000x128, .bf16⟩
  | .hbm, ⟨14, _⟩ => ⟨S1x128, .f32⟩
  | .hbm, ⟨15, _⟩ => ⟨S200000x128, .bf16⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .bf16⟩
  | .hbm, ⟨25, _⟩ => ⟨S600000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S200000x128, .f32⟩
  | .hbm, ⟨38, _⟩ => ⟨S600000x1, .i32⟩
  | .hbm, ⟨39, _⟩ => ⟨S200000x128, .f32⟩
  | .hbm, ⟨40, _⟩ => ⟨S_, .i32⟩
  | .hbm, ⟨41, _⟩ => ⟨S600000, .i32⟩
  | .hbm, ⟨42, _⟩ => ⟨S_, .i32⟩
  | .hbm, ⟨43, _⟩ => ⟨S200000, .i32⟩
  | .hbm, ⟨44, _⟩ => ⟨S600000x1, .i32⟩
  | .hbm, ⟨45, _⟩ => ⟨S200000, .i32⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .f32⟩
  | .hbm, ⟨50, _⟩ => ⟨S200000x1, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S200000x128, .f32⟩
  | .hbm, ⟨55, _⟩ => ⟨S600000x1, .i32⟩
  | .hbm, ⟨56, _⟩ => ⟨S200000x128, .f32⟩
  | .hbm, ⟨57, _⟩ => ⟨S_, .i32⟩
  | .hbm, ⟨58, _⟩ => ⟨S600000, .i32⟩
  | .hbm, ⟨59, _⟩ => ⟨S_, .i32⟩
  | .hbm, ⟨60, _⟩ => ⟨S200000, .i32⟩
  | .hbm, ⟨61, _⟩ => ⟨S600000x1, .i32⟩
  | .hbm, ⟨62, _⟩ => ⟨S200000, .i32⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000, .f32⟩
  | .hbm, ⟨67, _⟩ => ⟨S200000x1, .f32⟩
  | .hbm, ⟨68, _⟩ => ⟨S200000x128, .f32⟩
  | .hbm, ⟨69, _⟩ => ⟨S200000x128, .f32⟩
  | .hbm, ⟨70, _⟩ => ⟨S200000x128, .bf16⟩
  | .hbm, ⟨71, _⟩ => ⟨S200000x128, .bf16⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .bf16⟩
  | .hbm, ⟨81, _⟩ => ⟨S600000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .bf16⟩
  | .hbm, ⟨91, _⟩ => ⟨S600000x128, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x128, .bf16⟩
  | .hbm, ⟨101, _⟩ => ⟨S600000x128, .f32⟩
  | .hbm, ⟨102, _⟩ => ⟨S_, .i32⟩
  | .hbm, ⟨103, _⟩ => ⟨S600000, .i32⟩
  | .hbm, ⟨104, _⟩ => ⟨S600000, .i1⟩
  | .hbm, ⟨105, _⟩ => ⟨S_, .i32⟩
  | .hbm, ⟨106, _⟩ => ⟨S600000, .i32⟩
  | .hbm, ⟨107, _⟩ => ⟨S600000, .i32⟩
  | .hbm, ⟨108, _⟩ => ⟨S600000, .i32⟩
  | .hbm, ⟨109, _⟩ => ⟨S600000x1, .i32⟩
  | .hbm, ⟨110, _⟩ => ⟨S600000x128, .bf16⟩
  | .hbm, ⟨111, _⟩ => ⟨S600000x128, .f32⟩
  | .hbm, ⟨112, _⟩ => ⟨S600000x128, .f32⟩
  | .hbm, ⟨113, _⟩ => ⟨S_, .f32⟩
  | .hbm, ⟨114, _⟩ => ⟨S600000, .f32⟩
  | .hbm, ⟨115, _⟩ => ⟨S600000x1, .f32⟩
  | .hbm, ⟨116, _⟩ => ⟨S600000x128, .f32⟩
  | .hbm, ⟨117, _⟩ => ⟨S_, .f32⟩
  | .hbm, ⟨118, _⟩ => ⟨S600000, .f32⟩
  | .hbm, ⟨119, _⟩ => ⟨S600000x1, .f32⟩
  | .local _ .vmem, ⟨0, _⟩ => ⟨S8000x256, .f32⟩
  | .local _ .vmem, ⟨1, _⟩ => ⟨S8000x256, .f32⟩
  | .local _ .vmem, ⟨2, _⟩ => ⟨S256x128, .f32⟩
  | .local _ .vmem, ⟨3, _⟩ => ⟨S1x128, .f32⟩
  | .local _ .vmem, ⟨4, _⟩ => ⟨S8000x128, .bf16⟩
  | .local _ .vmem, ⟨5, _⟩ => ⟨S8000x128, .bf16⟩
  | .local _ .vmem, ⟨6, _⟩ => ⟨S8000x256, .f32⟩
  | .local _ .vmem, ⟨7, _⟩ => ⟨S8000x256, .f32⟩
  | .local _ .vmem, ⟨8, _⟩ => ⟨S256x128, .f32⟩
  | .local _ .vmem, ⟨9, _⟩ => ⟨S1x128, .f32⟩
  | .local _ .vmem, ⟨10, _⟩ => ⟨S8000x128, .bf16⟩
  | .local _ .vmem, ⟨11, _⟩ => ⟨S8000x128, .bf16⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S8000x256_S8000x256_0_0 : ∀ a, (![0, 0] : Fin 2 → Nat) a + S8000x256.size a ≤ S8000x256.size a
  h_S8000x256 : 0 < S8000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S600000x128_S600000_d1 : S600000x128.ReducesTo [1] S600000
  h_S_ : 0 < S_.numel
  dot_S8000x256_S256x128_S8000x128_1_0_0_1_n_n_wf : DotDims.WF S8000x256 S256x128 S8000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S200000x256.size a
  hwx0_0 : ∀ i : grid0.Coords, EltTy.bits .f32 = 32 ∨ (Rect.block (s := S200000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S200000x128.size a
  hwx0_3 : ∀ i : grid0.Coords, EltTy.bits .bf16 = 32 ∨ (Rect.block (s := S200000x128) S8000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x256.size a ≤ S200000x256.size a
  hwx1_0 : ∀ i : grid1.Coords, EltTy.bits .f32 = 32 ∨ (Rect.block (s := S200000x256) S8000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S200000x128.size a
  hwx1_3 : ∀ i : grid1.Coords, EltTy.bits .bf16 = 32 ∨ (Rect.block (s := S200000x128) S8000x128.size (cc1_transform_3 i) (hinb1_3 i)).WholeWords (EltTy.packing .bf16)

variable [Facts₀]

def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S200000x128 : Shape := ⟨2, ![200000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩

abbrev nBuf : Space → Nat
  | .hbm => 114
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S200000x128, .f32⟩
  | .hbm, ⟨13, _⟩ => ⟨S1x128, .f32⟩
  | .hbm, ⟨14, _⟩ => ⟨S200000x128, .f32⟩
  | .hbm, ⟨15, _⟩ => ⟨S200000x128, .f32⟩
  | .hbm, ⟨16, _⟩ => ⟨S200000x128, .f32⟩
  | .hbm, ⟨17, _⟩ => ⟨S1x128, .f32⟩
  | .hbm, ⟨18, _⟩ => ⟨S200000x128, .f32⟩
  | .hbm, ⟨19, _⟩ => ⟨S200000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S200000x128, .f32⟩
  | .hbm, ⟨31, _⟩ => ⟨S600000x1, .i32⟩
  | .hbm, ⟨32, _⟩ => ⟨S200000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S200000, .f32⟩
  | .hbm, ⟨37, _⟩ => ⟨S600000x1, .i32⟩
  | .hbm, ⟨38, _⟩ => ⟨S200000, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S200000x1, .f32⟩
  | .hbm, ⟨43, _⟩ => ⟨S200000x128, .f32⟩
  | .hbm, ⟨44, _⟩ => ⟨S200000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S200000x128, .f32⟩
  | .hbm, ⟨56, _⟩ => ⟨S600000x1, .i32⟩
  | .hbm, ⟨57, _⟩ => ⟨S200000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S200000, .f32⟩
  | .hbm, ⟨62, _⟩ => ⟨S600000x1, .i32⟩
  | .hbm, ⟨63, _⟩ => ⟨S200000, .f32⟩
  | .hbm, ⟨64, _⟩ => ⟨S_, .f32⟩
  | .hbm, ⟨65, _⟩ => ⟨S200000, .f32⟩
  | .hbm, ⟨66, _⟩ => ⟨S200000, .f32⟩
  | .hbm, ⟨67, _⟩ => ⟨S200000x1, .f32⟩
  | .hbm, ⟨68, _⟩ => ⟨S200000x128, .f32⟩
  | .hbm, ⟨69, _⟩ => ⟨S200000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S600000, .f32⟩
  | .hbm, ⟨91, _⟩ => ⟨S600000x1, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x128, .f32⟩
  | .hbm, ⟨101, _⟩ => ⟨S_, .i32⟩
  | .hbm, ⟨102, _⟩ => ⟨S600000, .i32⟩
  | .hbm, ⟨103, _⟩ => ⟨S600000, .i1⟩
  | .hbm, ⟨104, _⟩ => ⟨S_, .i32⟩
  | .hbm, ⟨105, _⟩ => ⟨S600000, .i32⟩
  | .hbm, ⟨106, _⟩ => ⟨S600000, .i32⟩
  | .hbm, ⟨107, _⟩ => ⟨S600000, .i32⟩
  | .hbm, ⟨108, _⟩ => ⟨S600000x1, .i32⟩
  | .hbm, ⟨109, _⟩ => ⟨S600000x128, .f32⟩
  | .hbm, ⟨110, _⟩ => ⟨S600000x128, .f32⟩
  | .hbm, ⟨111, _⟩ => ⟨S_, .f32⟩
  | .hbm, ⟨112, _⟩ => ⟨S600000, .f32⟩
  | .hbm, ⟨113, _⟩ => ⟨S600000x1, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S600000x128_S600000_d1 : S600000x128.ReducesTo [1] S600000
  h_S_ : 0 < S_.numel
  dot_S200000x256_S256x128_S200000x128_1_0_0_1_n_n_wf : DotDims.WF S200000x256 S256x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1

variable [Facts₀]

def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf

class Facts : Prop extends Facts₀ where

variable [Facts]
-- ==== Proof.KernelRun.lean ====
/-
  The whole program's run with its two results named.

  The program is a stretch of host operations, a first tiled matrix product, a second stretch, a second tiled product,
  and a last stretch of host operations that gathers, accumulates, averages and scores. Every weakly fair execution
  ends, nothing faults, the twelve argument arrays end as launched, and each of the two result arrays ends holding
  what the last stretch's operations compute from the contents the second product leaves (the contents at the last
  segment boundary, read at the result's buffer).
-/
import proofs.«111801_j5927054869109_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the five segments, its final state read at the two result buffers and the twelve arguments: the
    results at the last boundary's contents, the arguments as launched. -/
theorem run : θ_run defs (onTc (τ := τ) (main (F := F))) ⟨m, fun _ => 0, ρ⟩ (fun r => ∀ c : Dev nD,
      r.2.mem ((c.tc : Thread nD τ).loc main_v82) = W5 m ρ c (Proc.devRef .tc main_v82)
      ∧ r.2.mem ((c.tc : Thread nD τ).loc main_v85) = W5 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v82 (by decide)),
       h c _ (mem_uc main_v85 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Results

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«111801_j5927054869109_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«111801_j5927054869109_2_alg».proof.Proof.LibMatmulPlain
import proofs.«111801_j5927054869109_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.Linear0.lean ====
/-
  What the first tiled product leaves in its result array.

  The grid has 25 points. Point t takes rows 8000 t … 8000 t + 7999 of the [200000, 256] feature matrix, the whole
  [256, 128] weight and the [1, 128] bias row, and writes rows 8000 t … 8000 t + 7999 of the [200000, 128] result:
  entry (p, q) of its block is the 256-term sum of products of row p of its feature block with column q of the weight,
  plus entry q of the bias row. The 25 row blocks tile the result, so entry (r, q) of the result array is the sum
  over k of x(r, k) · w(k, q), plus b(0, q): one function of the three arrays, whichever point wrote it.
-/
import proofs.«111801_j5927054869109_2_alg».proof.Proof.Gen.KernelIdeal.Frame
import proofs.«111801_j5927054869109_2_alg».proof.Proof.LibDenseLayers
import Idealize.ShloMosaic.Lib.ValueIdx
import Idealize.ShloMosaic.Lib.ValueLayout
import Idealize.ShloMosaic.Lib.Pipeline.Value

set_option maxRecDepth 16384

noncomputable section

namespace Cert.KernelIdeal.Linear0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The affine map of the rows: entry (r, q) is the sum over k of x(r, k) · w(k, q), plus the bias row's entry q. -/
def lin (x : (⟨2, ![200000, 256]⟩ : Shape).Idx → EReal) (w : (⟨2, ![256, 128]⟩ : Shape).Idx → EReal)
    (b : (⟨2, ![1, 128]⟩ : Shape).Idx → EReal) : (⟨2, ![200000, 128]⟩ : Shape).Idx → EReal :=
  fun i => Cert.Layers.mm x w i + b (ix2 (0 : Fin 1) (i 1))

theorem lin_apply (x : (⟨2, ![200000, 256]⟩ : Shape).Idx → EReal) (w : (⟨2, ![256, 128]⟩ : Shape).Idx → EReal)
    (b : (⟨2, ![1, 128]⟩ : Shape).Idx → EReal) (r : Fin 200000) (q : Fin 128) :
    lin x w b (ix2 r q) = (∑ k : Fin 256, x (ix2 r k) * w (ix2 k q)) + b (ix2 (0 : Fin 1) q) := rfl

/-- One point's block: entry (p, q) is the 256-term sum of products plus the bias row's entry q. -/
theorem block_apply (x0 : FVec Ideal S8000x256 .f32) (x1 : FVec Ideal S256x128 .f32) (x2 : FVec Ideal S1x128 .f32)
    (p : Fin 8000) (q : Fin 128) :
    k0_pay1 (F := Ideal) x0 x1 x2 (ix2 p q) = (∑ k : Fin 256, x0 (ix2 p k) * x1 (ix2 k q)) + x2 (ix2 (0 : Fin 1) q) := by
  unfold k0_pay1
  show (matmul dot_S8000x256_S256x128_S8000x128_1_0_0_1_n_n none (truncf .bf16 x0 bitsLt_bf16_f32) (truncf .bf16 x1 bitsLt_bf16_f32)
      (constant S8000x128 .f32 0x00000000#32) (ix2 p q))
    + broadcastTo S8000x128 (shapeCast S1x128 x2 shapeCasts_S1x128_S1x128) broadcasts_S1x128_S8000x128 (ix2 p q) = _
  refine congrArg₂ (· + ·) ?_ ?_
  · exact (congrFun (Cert.Layers.tileMm_eq dot_S8000x256_S256x128_S8000x128_1_0_0_1_n_n
      dot_S8000x256_S256x128_S8000x128_1_0_0_1_n_n_wf rfl (truncf .bf16 x0 bitsLt_bf16_f32) x1 bitsLt_bf16_f32) (ix2 p q)).trans rfl
  · exact (broadcastTo_1b_ab_apply (shapeCast S1x128 x2 shapeCasts_S1x128_S1x128) broadcasts_S1x128_S8000x128 p q).trans
      (congrFun (shapeCast_self x2 shapeCasts_S1x128_S1x128) _)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature and result blocks move down with the point, the
    weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 25 := lt_of_lt_of_eq t.isLt N_0

/-- Row p of point t's block is row 8000 t + p of the array. -/
def row (t : Fin cfg0.N) (p : Fin 8000) : Fin 200000 := ⟨t.val * 8000 + p.val, by have := point_lt t; have := p.isLt; omega⟩

/-- The feature block at point t. -/
theorem read_x (c : Dev nD) (t : Fin cfg0.N) (p : Fin 8000) (k : Fin 256) :
    iblk0 V c 0 t (ix2 p k) = (V c main_arg0 : (⟨2, ![200000, 256]⟩ : Shape).Idx → EReal) (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 8000 + 1 * p.val = t.val * 8000 + p.val; omega
  | ⟨1, _⟩ => show win0_0.index t (1 : Fin 2) * 256 + 1 * k.val = k.val; omega

/-- The weight block at any point is the whole weight. -/
theorem read_w (c : Dev nD) (t : Fin cfg0.N) (k : Fin 256) (q : Fin 128) :
    iblk0 V c 1 t (ix2 k q) = (V c main_arg2 : (⟨2, ![256, 128]⟩ : Shape).Idx → EReal) (ix2 k q) := by
  obtain ⟨-, -, e0, e1, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- The bias block at any point is the whole bias row. -/
theorem read_b (c : Dev nD) (t : Fin cfg0.N) (q : Fin 128) :
    iblk0 V c 2 t (ix2 (0 : Fin 1) q) = (V c main_v0 : (⟨2, ![1, 128]⟩ : Shape).Idx → EReal) (ix2 (0 : Fin 1) q) := by
  obtain ⟨-, -, -, -, e0, e1, -⟩ := idx_facts t
  show V c main_v0 (((cfg0.win 2).blk t).view.emb (ix2 (0 : Fin 1) q)) = V c main_v0 (ix2 (0 : Fin 1) q)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry (p, q) of the result block at point t sits at (8000 t + p, q) of the result array. -/
theorem out_emb (t : Fin cfg0.N) (p : Fin 8000) (q : Fin 128) :
    ((cfg0.win 3).blk t).view.emb (ix2 p q) = (ix2 (row t p) q : (⟨2, ![200000, 128]⟩ : Shape).Idx) := by
  obtain ⟨-, -, -, -, -, -, e0, e1⟩ := idx_facts t
  refine funext fun a => Fin.ext ?_
  match a with
  | ⟨0, _⟩ => show win0_3.index t (0 : Fin 2) * 8000 + 1 * p.val = t.val * 8000 + p.val; omega
  | ⟨1, _⟩ => show win0_3.index t (1 : Fin 2) * 128 + 1 * q.val = q.val; omega

/-- WHAT POINT t WRITES BACK is block t of the affine map of the three arrays as the region finds them. -/
theorem flushed_eq (c : Dev nD) (t : Fin cfg0.N) :
    (dat0 V c).flushed 3 t = ((cfg0.win 3).blk t).view.read (Elt Ideal) (lin (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S8000x256) hz, View.ld_unit_zero (S := S256x128) hz, View.ld_unit_zero (S := S1x128) hz]
  funext j
  obtain ⟨p, q, rfl⟩ : ∃ (p : Fin 8000) (q : Fin 128), j = ix2 p q := ⟨j 0, j 1, eq_ix2 j⟩
  refine (block_apply (iblk0 V c 0 t) (iblk0 V c 1 t) (iblk0 V c 2 t) p q).trans ?_
  show _ = lin (V c main_arg0) (V c main_arg2) (V c main_v0) (((cfg0.win 3).blk t).view.emb (ix2 p q))
  rw [out_emb t p q, lin_apply, read_b V c t q]
  refine congrArg (· + _) (Finset.sum_congr rfl fun k _ => ?_)
  rw [read_x V c t p k, read_w V c t k q]

/-- An index of the result array is in point t's block iff each coordinate is in the block's range on its axis. -/
theorem mem_blk (t : Fin cfg0.N) (i : S200000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v1).slice (win0_3.rect t)).set ↔ _
  rw [View.set_slice_whole, Rect.mem_set_unit]
  exact Iff.rfl

/-- The 25 row blocks tile the result: row r is in the block of point r / 8000. -/
theorem cover (i : S200000x128.Idx) : ∃ t : Fin cfg0.N, (cfg0.win 3).flush t = true ∧ i ∈ ((cfg0.win 3).blk t).view.set := by
  have hi0 : (i 0).val < 200000 := (i 0).isLt
  have hi1 : (i 1).val < 128 := (i 1).isLt
  let t : Fin cfg0.N := ⟨(i 0).val / 8000, by rw [show cfg0.N = 25 from N_0]; omega⟩
  have htv : t.val = (i 0).val / 8000 := rfl
  obtain ⟨-, -, -, -, -, -, e0, e1⟩ := idx_facts t
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- THE RESULT ARRAY after the region: the affine map of the feature matrix, the weight and the bias row as the
    region finds them. -/
theorem final (c : Dev nD) :
    (dat0 V c).arrAt 3 cfg0.N = lin (V c main_arg0) (V c main_arg2) (V c main_v0) :=
  (dat0 V c).arrAt_eq_of_cover 3 (lin (V c main_arg0) (V c main_arg2) (V c main_v0)) (fun t _ => flushed_eq V c t) (cover)

end Cert.KernelIdeal.Linear0

end
-- ==== Proof.Linear1.lean ====
/-
  What the second tiled product leaves in its result array.

  The grid has 25 points. Point t takes rows 8000 t … 8000 t + 7999 of the [200000, 256] feature matrix, the whole
  [256, 128] weight and the [1, 128] bias row, and writes rows 8000 t … 8000 t + 7999 of the [200000, 128] result:
  entry (p, q) of its block is the 256-term sum of products of row p of its feature block with column q of the weight,
  plus entry q of the bias row. The 25 row blocks tile the result, so entry (r, q) of the result array is the sum
  over k of x(r, k) · w(k, q), plus b(0, q): one function of the three arrays, whichever point wrote it.
-/
import proofs.«111801_j5927054869109_2_alg».proof.Proof.Gen.KernelIdeal.Frame
import proofs.«111801_j5927054869109_2_alg».proof.Proof.LibDenseLayers
import Idealize.ShloMosaic.Lib.ValueIdx
import Idealize.ShloMosaic.Lib.ValueLayout
import Idealize.ShloMosaic.Lib.Pipeline.Value

set_option maxRecDepth 16384

noncomputable section

namespace Cert.KernelIdeal.Linear1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The affine map of the rows: entry (r, q) is the sum over k of x(r, k) · w(k, q), plus the bias row's entry q. -/
def lin (x : (⟨2, ![200000, 256]⟩ : Shape).Idx → EReal) (w : (⟨2, ![256, 128]⟩ : Shape).Idx → EReal)
    (b : (⟨2, ![1, 128]⟩ : Shape).Idx → EReal) : (⟨2, ![200000, 128]⟩ : Shape).Idx → EReal :=
  fun i => Cert.Layers.mm x w i + b (ix2 (0 : Fin 1) (i 1))

theorem lin_apply (x : (⟨2, ![200000, 256]⟩ : Shape).Idx → EReal) (w : (⟨2, ![256, 128]⟩ : Shape).Idx → EReal)
    (b : (⟨2, ![1, 128]⟩ : Shape).Idx → EReal) (r : Fin 200000) (q : Fin 128) :
    lin x w b (ix2 r q) = (∑ k : Fin 256, x (ix2 r k) * w (ix2 k q)) + b (ix2 (0 : Fin 1) q) := rfl

/-- One point's block: entry (p, q) is the 256-term sum of products plus the bias row's entry q. -/
theorem block_apply (x0 : FVec Ideal S8000x256 .f32) (x1 : FVec Ideal S256x128 .f32) (x2 : FVec Ideal S1x128 .f32)
    (p : Fin 8000) (q : Fin 128) :
    k1_pay1 (F := Ideal) x0 x1 x2 (ix2 p q) = (∑ k : Fin 256, x0 (ix2 p k) * x1 (ix2 k q)) + x2 (ix2 (0 : Fin 1) q) := by
  unfold k1_pay1
  show (matmul dot_S8000x256_S256x128_S8000x128_1_0_0_1_n_n none (truncf .bf16 x0 bitsLt_bf16_f32) (truncf .bf16 x1 bitsLt_bf16_f32)
      (constant S8000x128 .f32 0x00000000#32) (ix2 p q))
    + broadcastTo S8000x128 (shapeCast S1x128 x2 shapeCasts_S1x128_S1x128) broadcasts_S1x128_S8000x128 (ix2 p q) = _
  refine congrArg₂ (· + ·) ?_ ?_
  · exact (congrFun (Cert.Layers.tileMm_eq dot_S8000x256_S256x128_S8000x128_1_0_0_1_n_n
      dot_S8000x256_S256x128_S8000x128_1_0_0_1_n_n_wf rfl (truncf .bf16 x0 bitsLt_bf16_f32) x1 bitsLt_bf16_f32) (ix2 p q)).trans rfl
  · exact (broadcastTo_1b_ab_apply (shapeCast S1x128 x2 shapeCasts_S1x128_S1x128) broadcasts_S1x128_S8000x128 p q).trans
      (congrFun (shapeCast_self x2 shapeCasts_S1x128_S1x128) _)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature and result blocks move down with the point, the
    weight and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 25 := lt_of_lt_of_eq t.isLt N_1

/-- Row p of point t's block is row 8000 t + p of the array. -/
def row (t : Fin cfg1.N) (p : Fin 8000) : Fin 200000 := ⟨t.val * 8000 + p.val, by have := point_lt t; have := p.isLt; omega⟩

/-- The feature block at point t. -/
theorem read_x (c : Dev nD) (t : Fin cfg1.N) (p : Fin 8000) (k : Fin 256) :
    iblk1 V c 0 t (ix2 p k) = (V c main_arg1 : (⟨2, ![200000, 256]⟩ : Shape).Idx → EReal) (ix2 (row t p) k) := by
  obtain ⟨e0, e1, -⟩ := idx_facts t
  show V c main_arg1 (((cfg1.win 0).blk t).view.emb (ix2 p k)) = V c main_arg1 (ix2 (row t p) k)
  refine congrArg (V c main_arg1) (funext fun a => Fin.ext ?_)
  match a with
  | ⟨0, _⟩ => show win1_0.index t (0 : Fin 2) * 8000 + 1 * p.val = t.val * 8000 + p.val; omega
  | ⟨1, _⟩ => show win1_0.index t (1 : Fin 2) * 256 + 1 * k.val = k.val; omega

/-- The weight block at any point is the whole weight. -/
theorem read_w (c : Dev nD) (t : Fin cfg1.N) (k : Fin 256) (q : Fin 128) :
    iblk1 V c 1 t (ix2 k q) = (V c main_arg4 : (⟨2, ![256, 128]⟩ : Shape).Idx → EReal) (ix2 k q) := by
  obtain ⟨-, -, e0, e1, -⟩ := idx_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The bias block at any point is the whole bias row. -/
theorem read_b (c : Dev nD) (t : Fin cfg1.N) (q : Fin 128) :
    iblk1 V c 2 t (ix2 (0 : Fin 1) q) = (V c main_v2 : (⟨2, ![1, 128]⟩ : Shape).Idx → EReal) (ix2 (0 : Fin 1) q) := by
  obtain ⟨-, -, -, -, e0, e1, -⟩ := idx_facts t
  show V c main_v2 (((cfg1.win 2).blk t).view.emb (ix2 (0 : Fin 1) q)) = V c main_v2 (ix2 (0 : Fin 1) q)
  refine congrArg (V c main_v2) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry (p, q) of the result block at point t sits at (8000 t + p, q) of the result array. -/
theorem out_emb (t : Fin cfg1.N) (p : Fin 8000) (q : Fin 128) :
    ((cfg1.win 3).blk t).view.emb (ix2 p q) = (ix2 (row t p) q : (⟨2, ![200000, 128]⟩ : Shape).Idx) := by
  obtain ⟨-, -, -, -, -, -, e0, e1⟩ := idx_facts t
  refine funext fun a => Fin.ext ?_
  match a with
  | ⟨0, _⟩ => show win1_3.index t (0 : Fin 2) * 8000 + 1 * p.val = t.val * 8000 + p.val; omega
  | ⟨1, _⟩ => show win1_3.index t (1 : Fin 2) * 128 + 1 * q.val = q.val; omega

/-- WHAT POINT t WRITES BACK is block t of the affine map of the three arrays as the region finds them. -/
theorem flushed_eq (c : Dev nD) (t : Fin cfg1.N) :
    (dat1 V c).flushed 3 t = ((cfg1.win 3).blk t).view.read (Elt Ideal) (lin (V c main_arg1) (V c main_arg4) (V c main_v2)) := by
  show (cfg1.win 3).cut (grid1.coords t) ((dat1 V c).after 3 t) = _
  rw [after1_3]
  unfold out1_3
  rw [View.canon_unit_zero hz]
  simp only [View.ld_unit_zero (S := S8000x256) hz, View.ld_unit_zero (S := S256x128) hz, View.ld_unit_zero (S := S1x128) hz]
  funext j
  obtain ⟨p, q, rfl⟩ : ∃ (p : Fin 8000) (q : Fin 128), j = ix2 p q := ⟨j 0, j 1, eq_ix2 j⟩
  refine (block_apply (iblk1 V c 0 t) (iblk1 V c 1 t) (iblk1 V c 2 t) p q).trans ?_
  show _ = lin (V c main_arg1) (V c main_arg4) (V c main_v2) (((cfg1.win 3).blk t).view.emb (ix2 p q))
  rw [out_emb t p q, lin_apply, read_b V c t q]
  refine congrArg (· + _) (Finset.sum_congr rfl fun k _ => ?_)
  rw [read_x V c t p k, read_w V c t k q]

/-- An index of the result array is in point t's block iff each coordinate is in the block's range on its axis. -/
theorem mem_blk (t : Fin cfg1.N) (i : S200000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v3).slice (win1_3.rect t)).set ↔ _
  rw [View.set_slice_whole, Rect.mem_set_unit]
  exact Iff.rfl

/-- The 25 row blocks tile the result: row r is in the block of point r / 8000. -/
theorem cover (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  let t : Fin cfg1.N := ⟨(i 0).val / 8000, by rw [show cfg1.N = 25 from N_1]; omega⟩
  have htv : t.val = (i 0).val / 8000 := rfl
  obtain ⟨-, -, -, -, -, -, e0, e1⟩ := idx_facts t
  refine ⟨t, flush1_3 t, ?_⟩
  rw [mem_blk]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- THE RESULT ARRAY after the region: the affine map of the feature matrix, the weight and the bias row as the
    region finds them. -/
theorem final (c : Dev nD) :
    (dat1 V c).arrAt 3 cfg1.N = lin (V c main_arg1) (V c main_arg4) (V c main_v2) :=
  (dat1 V c).arrAt_eq_of_cover 3 (lin (V c main_arg1) (V c main_arg4) (V c main_v2)) (fun t _ => flushed_eq V c t) (cover)

end Cert.KernelIdeal.Linear1

end
-- ==== Proof.Boundary.lean ====
/-
  The contents the last stretch of host operations starts from.

  After the second tiled product, the result array of the first product holds the affine map of user features,
  click weight and click bias (laid out as one row); the result array of the second holds the affine map of item
  features, review weight and review bias; and the six index arrays are as launched: nothing before that boundary
  writes them. Each fact walks the contents back through the segment boundaries: a region changes only its own
  arrays, a host stretch only the buffers its operations write.
-/
import proofs.«111801_j5927054869109_2_alg».proof.Proof.Gen.KernelIdeal.Frame
import proofs.«111801_j5927054869109_2_alg».proof.Proof.Linear0
import proofs.«111801_j5927054869109_2_alg».proof.Proof.Linear1
import Idealize.ShloMosaic.Lib.StableHlo.Run

set_option maxRecDepth 16384

noncomputable section

namespace Cert.KernelIdeal.Boundary

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- A buffer that no operation of a stretch writes holds after the stretch what it held before. -/
macro "not_written" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The index arrays at the last boundary -/

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by not_written hostOps1
    _ = W1 m ρ c (Proc.devRef .tc main_arg9) := W2_of_ne m ρ c main_arg9 (by decide)
    _ = W0 m ρ c (Proc.devRef .tc main_arg9) := by not_written hostOps0
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by not_written hostOps1
    _ = W1 m ρ c (Proc.devRef .tc main_arg11) := W2_of_ne m ρ c main_arg11 (by decide)
    _ = W0 m ρ c (Proc.devRef .tc main_arg11) := by not_written hostOps0
    _ = m ((c : Thread nD τ).loc main_arg11) := rfl

/-! ## The first product's operands and result -/

theorem W1_main_arg0 (c : Dev nD) : V1 m ρ c main_arg0 = m ((c : Thread nD τ).loc main_arg0) :=
  calc W1 m ρ c (Proc.devRef .tc main_arg0)
    _ = W0 m ρ c (Proc.devRef .tc main_arg0) := by not_written hostOps0
    _ = m ((c : Thread nD τ).loc main_arg0) := rfl

theorem W1_main_arg2 (c : Dev nD) : V1 m ρ c main_arg2 = m ((c : Thread nD τ).loc main_arg2) :=
  calc W1 m ρ c (Proc.devRef .tc main_arg2)
    _ = W0 m ρ c (Proc.devRef .tc main_arg2) := by not_written hostOps0
    _ = m ((c : Thread nD τ).loc main_arg2) := rfl

/-- The click bias, reshaped to one row by the first stretch. -/
theorem W1_main_v0 (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results
  rfl

/-- The first product's result array at the last boundary. -/
theorem W4_main_v1 (c : Dev nD) :
    W4 m ρ c (Proc.devRef .tc main_v1)
      = Linear0.lin (m ((c : Thread nD τ).loc main_arg0)) (m ((c : Thread nD τ).loc main_arg2))
          (shapeCast S1x128 (m ((c : Thread nD τ).loc main_arg3)) shapeCasts_S128_S1x128) :=
  calc W4 m ρ c (Proc.devRef .tc main_v1)
    _ = W3 m ρ c (Proc.devRef .tc main_v1) := W4_of_ne m ρ c main_v1 (by decide)
    _ = W2 m ρ c (Proc.devRef .tc main_v1) := by not_written hostOps1
    _ = (dat0 (V1 m ρ) c).arrAt 3 cfg0.N := W2_arr m ρ c 3
    _ = Linear0.lin (V1 m ρ c main_arg0) (V1 m ρ c main_arg2) (V1 m ρ c main_v0) := Linear0.final (V1 m ρ) c
    _ = _ := by rw [W1_main_arg0 m ρ c, W1_main_arg2 m ρ c, W1_main_v0 m ρ c]

/-! ## The second product's operands and result -/

theorem W3_main_arg1 (c : Dev nD) : V3 m ρ c main_arg1 = m ((c : Thread nD τ).loc main_arg1) :=
  calc W3 m ρ c (Proc.devRef .tc main_arg1)
    _ = W2 m ρ c (Proc.devRef .tc main_arg1) := by not_written hostOps1
    _ = W1 m ρ c (Proc.devRef .tc main_arg1) := W2_of_ne m ρ c main_arg1 (by decide)
    _ = W0 m ρ c (Proc.devRef .tc main_arg1) := by not_written hostOps0
    _ = m ((c : Thread nD τ).loc main_arg1) := rfl

theorem W3_main_arg4 (c : Dev nD) : V3 m ρ c main_arg4 = m ((c : Thread nD τ).loc main_arg4) :=
  calc W3 m ρ c (Proc.devRef .tc main_arg4)
    _ = W2 m ρ c (Proc.devRef .tc main_arg4) := by not_written hostOps1
    _ = W1 m ρ c (Proc.devRef .tc main_arg4) := W2_of_ne m ρ c main_arg4 (by decide)
    _ = W0 m ρ c (Proc.devRef .tc main_arg4) := by not_written hostOps0
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by not_written hostOps0
    _ = m ((c : Thread nD τ).loc main_arg5) := rfl

/-- The review bias, reshaped to one row by the second stretch. -/
theorem W3_main_v2 (c : Dev nD) :
    V3 m ρ c main_v2 = shapeCast S1x128 (m ((c : Thread nD τ).loc main_arg5)) shapeCasts_S128_S1x128 := by
  show StableHlo.after hostOps1 (W2 m ρ c) (Proc.devRef .tc main_v2) = _
  after_results
  rw [W2_main_arg5 m ρ c]
  rfl

/-- The second product's result array at the last boundary. -/
theorem W4_main_v3 (c : Dev nD) :
    W4 m ρ c (Proc.devRef .tc main_v3)
      = Linear1.lin (m ((c : Thread nD τ).loc main_arg1)) (m ((c : Thread nD τ).loc main_arg4))
          (shapeCast S1x128 (m ((c : Thread nD τ).loc main_arg5)) shapeCasts_S128_S1x128) :=
  calc W4 m ρ c (Proc.devRef .tc main_v3)
    _ = (dat1 (V3 m ρ) c).arrAt 3 cfg1.N := W4_arr m ρ c 3
    _ = Linear1.lin (V3 m ρ c main_arg1) (V3 m ρ c main_arg4) (V3 m ρ c main_v2) := Linear1.final (V3 m ρ) c
    _ = _ := by rw [W3_main_arg1 m ρ c, W3_main_arg4 m ρ c, W3_main_v2 m ρ c]

end Cert.KernelIdeal.Boundary

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibFlatSegments.lean ====
/-
  A flat array gathered and scattered by one column of index words, read at an index.

  `x[idx]` for a flat array `x : [N]` and indices `idx : [E]` (as `[E, 1]`): element `e` of the result is the element
  of `x` at the index `idx e`, read as a signed integer and clamped into `[0, N − 1]` — the same clamp a row gather of
  an `[N, C]` matrix applies, so a flat gather and a row gather by one index column select the same positions.
  `x.at[idx].add(v)` for flat `x : [N]`, `v : [E]` on the extended reals: element `p` ends at its initial value plus
  the sum of the updates whose index word, read signed, is `p` — the same landing condition a row scatter uses.
-/
import proofs.«111801_j5927054869109_2_alg».proof.Proof.LibScatterRows
import proofs.«111801_j5927054869109_2_alg».proof.Proof.LibGatherRows

noncomputable section

namespace Cert.LibFlatSegments

open Idealize.ShloMosaic Idealize.ShloMosaic.ValueIdx

variable {α : Type}

/-- The dimension numbers of a flat gather by a column of indices. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the element of `x` that index `e` selects. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (GatherRows.clampRow N hN (idx (ix2 e 0)))) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- THE FLAT SEGMENT SUM READ AT `p`, on the extended reals: the operand's element plus the sum of the updates whose
    index word, read signed, is `p`. -/
theorem flat_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

end Cert.LibFlatSegments

end
-- ==== Proof.LibDegreeCount.lean ====
/-
  The in-degree of a node, counted two ways.

  A node's in-degree is the number of edges whose destination word, read as a signed integer, is the node. One
  program counts it in 32-bit words: it scatters the word 1 for every edge into a zero array with wrapping addition,
  takes the signed maximum with 1 and converts the word to a float. The other counts in floats: it scatters the
  float 1.0 for every edge into a zero array with exact addition and takes the maximum with 1.0. With fewer than
  2^31 edges the word count does not wrap, so the two are the same extended real: max (degree, 1).
-/
import Mathlib.Data.BitVec
import Idealize.ShloMosaic.PureOps.Ideal
import Idealize.ShloMosaic.Lib.ValueIdx
import Idealize.ShloMosaic.Lib.Pipeline.Value
import proofs.«111801_j5927054869109_2_alg».proof.Proof.LibScatterRows
import proofs.«111801_j5927054869109_2_alg».proof.Proof.LibFlatSegments

noncomputable section

namespace Cert.Degree

open Idealize.ShloMosaic Idealize.ShloMosaic.ValueIdx

/-- The f32 word of 1.0 denotes the real 1. -/
theorem ofBits_one : Ideal.ofBits .f32 0x3F800000#32 = 1 := by
  simp [Ideal.ofBits, Ideal.ieee, -EReal.coe_mul]; norm_num

variable {N E : Nat}

/-- The number of edges whose index word, read signed, is `p`. -/
def deg (idx : IVec ⟨2, ![E, 1]⟩ 32) (p : Fin N) : Nat :=
  (Finset.univ.filter fun e : Fin E => (idx (ix2 e 0)).toInt = (p.val : ℤ)).card

theorem deg_le (idx : IVec ⟨2, ![E, 1]⟩ 32) (p : Fin N) : deg idx p ≤ E := by
  unfold deg
  exact (Finset.card_le_univ _).trans (by simp)

/-- Adding the word 1 once per edge landing on `p` gives the degree as a word. -/
theorem word_sum (idx : IVec ⟨2, ![E, 1]⟩ 32) (p : Fin N) :
    (∑ e : Fin E, if (idx (ix2 e 0)).toInt = (p.val : ℤ) then (1 : BitVec 32) else 0) = BitVec.ofNat 32 (deg idx p) := by
  rw [Finset.sum_boole, BitVec.natCast_eq_ofNat]
  rfl

/-- Adding the real 1 once per edge landing on `p` gives the degree as an extended real. -/
theorem real_sum (idx : IVec ⟨2, ![E, 1]⟩ 32) (p : Fin N) :
    (∑ e : Fin E, if (idx (ix2 e 0)).toInt = (p.val : ℤ) then (1 : EReal) else 0) = ((deg idx p : ℕ) : EReal) := by
  rw [Finset.sum_boole]
  rfl

/-- A degree below 2^31, as a word, maximised signed against the word 1 and read signed, is max (degree, 1). -/
theorem word_max (n : Nat) (hn : n < 2 ^ 31) :
    ((IntOp.maxsi (BitVec.ofNat 32 n) 1#32).toInt : ℤ) = max (n : ℤ) 1 := by
  have h1 : (BitVec.ofNat 32 n).toInt = (n : ℤ) := by
    have hm : (BitVec.ofNat 32 n).toNat = n := by
      rw [BitVec.toNat_ofNat]; exact Nat.mod_eq_of_lt (by omega)
    rw [BitVec.toInt_eq_toNat_cond, hm, if_pos (by omega)]
  have h2 : (1#32 : BitVec 32).toInt = 1 := by decide
  unfold IntOp.maxsi
  rw [BitVec.slt, h1, h2]
  by_cases h : (1 : ℤ) < n
  · rw [decide_eq_true h, if_pos rfl, h1]; omega
  · rw [decide_eq_false h, if_neg (by simp), h2]; omega

/-- THE TWO COUNTS AGREE at every node, for fewer than 2^31 edges: the word count, kept at least 1 and converted, is
    the float count kept at least 1.0. The zero and one arrays are any arrays with those entries. -/
theorem counts_agree (hE : E < 2 ^ 31) (wf : ScatterDims.WF ⟨1, ![N]⟩ ⟨2, ![E, 1]⟩ ⟨1, ![E]⟩ [] [0] [0] 1)
    (dI dF : ScatterDims ⟨1, ![N]⟩ ⟨2, ![E, 1]⟩ ⟨1, ![E]⟩)
    (hdI : dI = ScatterRows.countDims N E wf) (hdF : dF = ScatterRows.countDims N E wf)
    (idx : IVec ⟨2, ![E, 1]⟩ 32)
    (zI : IVec ⟨1, ![N]⟩ 32) (hzI : ∀ i, zI i = 0#32) (oI : IVec ⟨1, ![E]⟩ 32) (hoI : ∀ j, oI j = 1#32)
    (oN : IVec ⟨1, ![N]⟩ 32) (hoN : ∀ i, oN i = 1#32)
    (zF : FVec Ideal ⟨1, ![N]⟩ .f32) (hzF : ∀ i, zF i = 0) (oF : FVec Ideal ⟨1, ![E]⟩ .f32) (hoF : ∀ j, oF j = 1)
    (oNF : FVec Ideal ⟨1, ![N]⟩ .f32) (hoNF : ∀ i, oNF i = 1) :
    (sitofp .f32 (maxsi (Host.scatter dI IntOp.addi zI idx oI) oN) : FVec Ideal ⟨1, ![N]⟩ .f32)
      = maximumf (Host.scatterAdd dF zF idx oF) oNF := by
  subst hdI hdF
  funext i
  obtain ⟨p, rfl⟩ : ∃ p : Fin N, i = ix1 p := ⟨i 0, eq_ix1 i⟩
  have hdeg : deg idx p < 2 ^ 31 := lt_of_le_of_lt (deg_le idx p) hE
  show (((IntOp.maxsi (Host.scatter (ScatterRows.countDims N E wf) IntOp.addi zI idx oI (ix1 p)) (oN (ix1 p))).toInt : ℝ) : EReal)
    = max (Ideal.hostScatterAdd (ScatterRows.countDims N E wf) zF idx oF (ix1 p)) (oNF (ix1 p))
  rw [ScatterRows.count_scatter_apply wf IntOp.addi (fun _ _ => rfl) zI idx oI p,
    Cert.LibFlatSegments.flat_scatterAdd_apply wf zF idx oF p, hzI, hzF, hoN, hoNF]
  simp only [hoI, hoF]
  rw [zero_add, real_sum idx p]
  have hw : (0#32 + ∑ e : Fin E, if (idx (ix2 e 0)).toInt = (p.val : ℤ) then 1#32 else 0) = BitVec.ofNat 32 (deg idx p) := by
    rw [← word_sum idx p]
    exact zero_add _
  rw [hw, word_max _ hdeg]
  by_cases h : (1 : ℤ) < (deg idx p : ℤ)
  · rw [max_eq_left (le_of_lt h)]
    have h' : (1 : EReal) ≤ ((deg idx p : ℕ) : EReal) := by
      have : ((1 : ℕ) : EReal) ≤ ((deg idx p : ℕ) : EReal) := EReal.natCast_le_iff.mpr (by omega)
      simpa using this
    rw [max_eq_left h']
    simp
  · rw [max_eq_right (not_lt.mp h)]
    have h' : ((deg idx p : ℕ) : EReal) ≤ (1 : EReal) := by
      have : ((deg idx p : ℕ) : EReal) ≤ ((1 : ℕ) : EReal) := EReal.natCast_le_iff.mpr (by omega)
      simpa using this
    rw [max_eq_right h']
    simp

end Cert.Degree

end
-- ==== Proof.Bridge.lean ====
/-
  The last stretch of host operations, against the reference's composed term.

  From the two affine maps (user side and item side) and the six index arrays both programs do the same thing: gather
  message rows along edges, add them up per destination node, divide each node's sum by max (in-degree, 1), gather the
  averaged rows at the scored edges' endpoints, multiply and sum along the feature axis. They differ in three
  spellings, none of which changes an extended real: one program stores rows in a narrower float format and widens them
  again (a change of format is the identity here); it counts the in-degree in 32-bit words where the reference counts in
  floats (the two counts agree below 2^31 edges); and its affine maps arrive as arrays where the reference spells a
  general product plus a broadcast bias (both are the same sum of products plus the bias entry).
-/
import proofs.«111801_j5927054869109_2_alg».proof.Proof.Gen.KernelIdeal.Frame
import proofs.«111801_j5927054869109_2_alg».proof.Proof.Gen.ReferenceIdeal.Run
import proofs.«111801_j5927054869109_2_alg».proof.Proof.LibDenseLayers
import proofs.«111801_j5927054869109_2_alg».proof.Proof.LibDegreeCount
import Idealize.ShloMosaic.Lib.StableHlo.Run
import Idealize.ShloMosaic.Lib.ValueLayout
import Idealize.ShloMosaic.PureOps.Ideal.Laws

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

/-- The reference's affine map — a general product plus the bias broadcast first to one row and then down the rows —
    is the sum of products plus the bias entry. -/
theorem ref_lin (x : FVec Ideal Cert.ReferenceIdeal.S200000x256 .f32) (w : FVec Ideal Cert.ReferenceIdeal.S256x128 .f32) (b : FVec Ideal Cert.ReferenceIdeal.S128 .f32)
    (h1 : Cert.ReferenceIdeal.S128.BroadcastsInDim Cert.ReferenceIdeal.S1x128 ![1]) (h2 : Cert.ReferenceIdeal.S1x128.BroadcastsInDim Cert.ReferenceIdeal.S200000x128 ![0, 1]) :
    addf (Host.dotGeneral Cert.ReferenceIdeal.dot_S200000x256_S256x128_S200000x128_1_0_0_1_n_n none x w)
        (broadcastInDim Cert.ReferenceIdeal.S200000x128 ![0, 1] h2 (broadcastInDim Cert.ReferenceIdeal.S1x128 ![1] h1 b))
      = Cert.Layers.dense (m := 200000) (k := 256) (n := 128) x w b := by
  rw [Cert.Layers.hostMm_eq Cert.ReferenceIdeal.dot_S200000x256_S256x128_S200000x128_1_0_0_1_n_n
    Cert.ReferenceIdeal.Gen.dot_S200000x256_S256x128_S200000x128_1_0_0_1_n_n_wf rfl x w, Cert.Layers.hostBias_eq b h1 h2]
  rfl

/-- The in-degree counted in words, kept at least 1 and converted, is the in-degree counted in floats kept at least
    1.0: 600000 edges are fewer than 2^31. -/
theorem cnt_eq (idx : IVec S600000x1 32)
    (hz : S_.BroadcastsInDim S200000 (![] : Fin 0 → Fin S200000.rank)) (ho : S_.BroadcastsInDim S600000 (![] : Fin 0 → Fin S600000.rank))
    (hz' : S_.BroadcastsInDim S200000 (![] : Fin 0 → Fin S200000.rank))
    (hzR : Cert.ReferenceIdeal.S_.BroadcastsInDim Cert.ReferenceIdeal.S200000 (![] : Fin 0 → Fin Cert.ReferenceIdeal.S200000.rank))
    (hoR : Cert.ReferenceIdeal.S_.BroadcastsInDim Cert.ReferenceIdeal.S600000 (![] : Fin 0 → Fin Cert.ReferenceIdeal.S600000.rank))
    (hzR' : Cert.ReferenceIdeal.S_.BroadcastsInDim Cert.ReferenceIdeal.S200000 (![] : Fin 0 → Fin Cert.ReferenceIdeal.S200000.rank)) :
    (sitofp .f32 (maxsi (Host.scatter scatter_S200000_S600000x1_S600000_n_0_0_1 IntOp.addi
          (broadcastInDim S200000 ![] hz (constantI S_ 32 0#32)) idx
          (broadcastInDim S600000 ![] ho (constantI S_ 32 1#32)))
        (broadcastInDim S200000 ![] hz' (constantI S_ 32 1#32))) : FVec Ideal S200000 .f32)
      = maximumf (Host.scatterAdd Cert.ReferenceIdeal.scatter_S200000_S600000x1_S600000_n_0_0_1
          (broadcastInDim Cert.ReferenceIdeal.S200000 ![] hzR (constant (F := Ideal) Cert.ReferenceIdeal.S_ .f32 0x00000000#32)) idx
          (broadcastInDim Cert.ReferenceIdeal.S600000 ![] hoR (constant (F := Ideal) Cert.ReferenceIdeal.S_ .f32 0x3F800000#32)))
        (broadcastInDim Cert.ReferenceIdeal.S200000 ![] hzR' (constant (F := Ideal) Cert.ReferenceIdeal.S_ .f32 0x3F800000#32)) :=
  Cert.Degree.counts_agree (N := 200000) (E := 600000) (by norm_num)
    scatter_S200000_S600000x1_S600000_n_0_0_1_wf _ _ rfl rfl idx
    _ (fun i => broadcastInDim_apply _ hz _ i ix0 (fun a => a.elim0))
    _ (fun j => broadcastInDim_apply _ ho _ j ix0 (fun a => a.elim0))
    _ (fun i => broadcastInDim_apply _ hz' _ i ix0 (fun a => a.elim0))
    _ (fun i => (broadcastInDim_apply _ hzR _ i ix0 (fun a => a.elim0)).trans Ideal.ofBits_zero_f32)
    _ (fun j => (broadcastInDim_apply _ hoR _ j ix0 (fun a => a.elim0)).trans Cert.Degree.ofBits_one)
    _ (fun i => (broadcastInDim_apply _ hzR' _ i ix0 (fun a => a.elim0)).trans Cert.Degree.ofBits_one)

/-- Widening a narrower float format is the identity on the extended reals. -/
theorem extf_id {s : Shape} (x : FVec Ideal s .bf16) (h : FTy.bf16.bits < FTy.f32.bits) :
    extf .f32 x h = (x : s.Idx → EReal) := rfl

/-- Narrowing to a narrower float format is the identity on the extended reals. -/
theorem truncf_id {s : Shape} (x : FVec Ideal s .f32) (h : FTy.bf16.bits < FTy.f32.bits) :
    truncf .bf16 x h = (x : s.Idx → EReal) := rfl

variable (VK : Valuation τ sig (Elt Ideal))
  (m' : (ℓ : Loc Cert.ReferenceIdeal.nD Cert.ReferenceIdeal.τ Cert.ReferenceIdeal.sig) → Buf (Elt Ideal) ℓ) (c : Dev Cert.ReferenceIdeal.nD)

set_option maxHeartbeats 4000000 in
/-- The score of the positive edges: the last stretch's first result, from contents holding the two affine maps and
    the index arrays, is the reference's first result. -/
theorem pos_score
    (h1 : (VK (Proc.devRef .tc main_v1) : S200000x128.Idx → EReal)
      = Cert.Layers.dense (m := 200000) (k := 256) (n := 128) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
    (h3 : (VK (Proc.devRef .tc main_v3) : S200000x128.Idx → EReal)
      = Cert.Layers.dense (m := 200000) (k := 256) (n := 128) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
    (h6 : VK (Proc.devRef .tc main_arg6) = (m' ((c.tc : Thread Cert.ReferenceIdeal.nD Cert.ReferenceIdeal.τ).loc Cert.ReferenceIdeal.main_arg6)))
    (h7 : VK (Proc.devRef .tc main_arg7) = (m' ((c.tc : Thread Cert.ReferenceIdeal.nD Cert.ReferenceIdeal.τ).loc Cert.ReferenceIdeal.main_arg7)))
    (h8 : VK (Proc.devRef .tc main_arg8) = (m' ((c.tc : Thread Cert.ReferenceIdeal.nD Cert.ReferenceIdeal.τ).loc Cert.ReferenceIdeal.main_arg8)))
    (h9 : VK (Proc.devRef .tc main_arg9) = (m' ((c.tc : Thread Cert.ReferenceIdeal.nD Cert.ReferenceIdeal.τ).loc Cert.ReferenceIdeal.main_arg9))) :
    StableHlo.after (hostOps2 (F := Ideal)) VK (Proc.devRef .tc main_v82) = Cert.ReferenceIdeal.Value.res_main_v62 m' c := by
  after_results_simp
  rw [h1, h3, h6, h7, h8, h9]
  unfold Cert.ReferenceIdeal.Value.res_main_v62
  rw [ref_lin, ref_lin]
  rw [cnt_eq (hzR := Cert.ReferenceIdeal.Gen.bcast_S_S200000) (hoR := Cert.ReferenceIdeal.Gen.bcast_S_S600000) (hzR' := Cert.ReferenceIdeal.Gen.bcast_S_S200000),
    cnt_eq (hzR := Cert.ReferenceIdeal.Gen.bcast_S_S200000) (hoR := Cert.ReferenceIdeal.Gen.bcast_S_S600000) (hzR' := Cert.ReferenceIdeal.Gen.bcast_S_S200000)]
  simp only [extf_id, truncf_id]
  rfl

set_option maxHeartbeats 4000000 in
/-- The score of the negative edges: the last stretch's second result is the reference's second result. -/
theorem neg_score
    (h1 : (VK (Proc.devRef .tc main_v1) : S200000x128.Idx → EReal)
      = Cert.Layers.dense (m := 200000) (k := 256) (n := 128) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
    (h3 : (VK (Proc.devRef .tc main_v3) : S200000x128.Idx → EReal)
      = Cert.Layers.dense (m := 200000) (k := 256) (n := 128) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
    (h6 : VK (Proc.devRef .tc main_arg6) = (m' ((c.tc : Thread Cert.ReferenceIdeal.nD Cert.ReferenceIdeal.τ).loc Cert.ReferenceIdeal.main_arg6)))
    (h7 : VK (Proc.devRef .tc main_arg7) = (m' ((c.tc : Thread Cert.ReferenceIdeal.nD Cert.ReferenceIdeal.τ).loc Cert.ReferenceIdeal.main_arg7)))
    (h8 : VK (Proc.devRef .tc main_arg8) = (m' ((c.tc : Thread Cert.ReferenceIdeal.nD Cert.ReferenceIdeal.τ).loc Cert.ReferenceIdeal.main_arg8)))
    (h9 : VK (Proc.devRef .tc main_arg9) = (m' ((c.tc : Thread Cert.ReferenceIdeal.nD Cert.ReferenceIdeal.τ).loc Cert.ReferenceIdeal.main_arg9)))
    (h10 : VK (Proc.devRef .tc main_arg10) = (m' ((c.tc : Thread Cert.ReferenceIdeal.nD Cert.ReferenceIdeal.τ).loc Cert.ReferenceIdeal.main_arg10)))
    (h11 : VK (Proc.devRef .tc main_arg11) = (m' ((c.tc : Thread Cert.ReferenceIdeal.nD Cert.ReferenceIdeal.τ).loc Cert.ReferenceIdeal.main_arg11))) :
    StableHlo.after (hostOps2 (F := Ideal)) VK (Proc.devRef .tc main_v85) = Cert.ReferenceIdeal.Value.res_main_v79 m' c := by
  after_results_simp
  rw [h1, h3, h6, h7, h8, h9, h10, h11]
  unfold Cert.ReferenceIdeal.Value.res_main_v79
  rw [ref_lin, ref_lin]
  rw [cnt_eq (hzR := Cert.ReferenceIdeal.Gen.bcast_S_S200000) (hoR := Cert.ReferenceIdeal.Gen.bcast_S_S600000) (hzR' := Cert.ReferenceIdeal.Gen.bcast_S_S200000),
    cnt_eq (hzR := Cert.ReferenceIdeal.Gen.bcast_S_S200000) (hoR := Cert.ReferenceIdeal.Gen.bcast_S_S600000) (hzR' := Cert.ReferenceIdeal.Gen.bcast_S_S200000)]
  simp only [extf_id, truncf_id]
  rfl

end Cert.Bridge

end
-- ==== Proof.Glue.lean ====
/-
  The two results of the whole program are the reference's two results.

  The program's results are what its last stretch of host operations computes from the contents at the last segment
  boundary. There the two tiled products' result arrays hold the two affine maps — the sum of products plus the bias
  row's entry, and the bias row is the bias vector reshaped, so its entry q is the vector's entry q — and the index
  arrays are as launched. From such contents the last stretch computes the reference's composed term.
-/
import proofs.«111801_j5927054869109_2_alg».proof.Proof.Boundary
import proofs.«111801_j5927054869109_2_alg».proof.Proof.Bridge

set_option maxRecDepth 16384

noncomputable section

namespace Cert.Glue

open Idealize.ShloMosaic Idealize.ShloMosaic.TcCoe Idealize.ShloMosaic.ValueIdx Idealize.SL.Sem
open Cert.KernelIdeal Cert.KernelIdeal.Gen

/-- The affine map with the bias vector reshaped to one row is the sum of products plus the bias vector's entry. -/
theorem lin0_eq_dense (x : (⟨2, ![200000, 256]⟩ : Shape).Idx → EReal) (w : (⟨2, ![256, 128]⟩ : Shape).Idx → EReal)
    (b : (⟨1, ![128]⟩ : Shape).Idx → EReal) (h : (⟨1, ![128]⟩ : Shape).ShapeCasts ⟨2, ![1, 128]⟩) :
    Linear0.lin x w (shapeCast ⟨2, ![1, 128]⟩ b h) = Cert.Layers.dense (m := 200000) (k := 256) (n := 128) x w b := by
  funext i
  obtain ⟨p, q, rfl⟩ : ∃ (p : Fin 200000) (q : Fin 128), i = ix2 p q := ⟨i 0, i 1, eq_ix2 i⟩
  show Cert.Layers.mm x w (ix2 p q) + shapeCast ⟨2, ![1, 128]⟩ b h (ix2 (0 : Fin 1) q) = Cert.Layers.mm x w (ix2 p q) + b (ix1 q)
  exact congrArg (Cert.Layers.mm x w (ix2 p q) + ·) (shapeCast_a_1a_apply b h 0 q)

theorem lin1_eq_dense (x : (⟨2, ![200000, 256]⟩ : Shape).Idx → EReal) (w : (⟨2, ![256, 128]⟩ : Shape).Idx → EReal)
    (b : (⟨1, ![128]⟩ : Shape).Idx → EReal) (h : (⟨1, ![128]⟩ : Shape).ShapeCasts ⟨2, ![1, 128]⟩) :
    Linear1.lin x w (shapeCast ⟨2, ![1, 128]⟩ b h) = Cert.Layers.dense (m := 200000) (k := 256) (n := 128) x w b := by
  funext i
  obtain ⟨p, q, rfl⟩ : ∃ (p : Fin 200000) (q : Fin 128), i = ix2 p q := ⟨i 0, i 1, eq_ix2 i⟩
  show Cert.Layers.mm x w (ix2 p q) + shapeCast ⟨2, ![1, 128]⟩ b h (ix2 (0 : Fin 1) q) = Cert.Layers.mm x w (ix2 p q) + b (ix1 q)
  exact congrArg (Cert.Layers.mm x w (ix2 p q) + ·) (shapeCast_a_1a_apply b h 0 q)

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The first product's array at the last boundary, over the reference's arguments. -/
theorem user_side
    (e0 : (m' ((c.tc : Thread Cert.ReferenceIdeal.nD Cert.ReferenceIdeal.τ).loc Cert.ReferenceIdeal.main_arg0)) = (m ((c.tc : Thread nD τ).loc main_arg0)))
    (e2 : (m' ((c.tc : Thread Cert.ReferenceIdeal.nD Cert.ReferenceIdeal.τ).loc Cert.ReferenceIdeal.main_arg2)) = (m ((c.tc : Thread nD τ).loc main_arg2)))
    (e3 : (m' ((c.tc : Thread Cert.ReferenceIdeal.nD Cert.ReferenceIdeal.τ).loc Cert.ReferenceIdeal.main_arg3)) = (m ((c.tc : Thread nD τ).loc main_arg3))) :
    (W4 m ρ c (Proc.devRef .tc main_v1) : S200000x128.Idx → EReal)
      = Cert.Layers.dense (m := 200000) (k := 256) (n := 128) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := by
  rw [e0, e2, e3]
  exact (Boundary.W4_main_v1 m ρ c).trans (lin0_eq_dense _ _ _ _)

/-- The second product's array at the last boundary, over the reference's arguments. -/
theorem item_side
    (e1 : (m' ((c.tc : Thread Cert.ReferenceIdeal.nD Cert.ReferenceIdeal.τ).loc Cert.ReferenceIdeal.main_arg1)) = (m ((c.tc : Thread nD τ).loc main_arg1)))
    (e4 : (m' ((c.tc : Thread Cert.ReferenceIdeal.nD Cert.ReferenceIdeal.τ).loc Cert.ReferenceIdeal.main_arg4)) = (m ((c.tc : Thread nD τ).loc main_arg4)))
    (e5 : (m' ((c.tc : Thread Cert.ReferenceIdeal.nD Cert.ReferenceIdeal.τ).loc Cert.ReferenceIdeal.main_arg5)) = (m ((c.tc : Thread nD τ).loc main_arg5))) :
    (W4 m ρ c (Proc.devRef .tc main_v3) : S200000x128.Idx → EReal)
      = Cert.Layers.dense (m := 200000) (k := 256) (n := 128) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [e1, e4, e5]
  exact (Boundary.W4_main_v3 m ρ c).trans (lin1_eq_dense _ _ _ _)

/-- THE FIRST RESULT: the positive edges' scores. -/
theorem pos
    (e0 : (m' ((c.tc : Thread Cert.ReferenceIdeal.nD Cert.ReferenceIdeal.τ).loc Cert.ReferenceIdeal.main_arg0)) = (m ((c.tc : Thread nD τ).loc main_arg0)))
    (e1 : (m' ((c.tc : Thread Cert.ReferenceIdeal.nD Cert.ReferenceIdeal.τ).loc Cert.ReferenceIdeal.main_arg1)) = (m ((c.tc : Thread nD τ).loc main_arg1)))
    (e2 : (m' ((c.tc : Thread Cert.ReferenceIdeal.nD Cert.ReferenceIdeal.τ).loc Cert.ReferenceIdeal.main_arg2)) = (m ((c.tc : Thread nD τ).loc main_arg2)))
    (e3 : (m' ((c.tc : Thread Cert.ReferenceIdeal.nD Cert.ReferenceIdeal.τ).loc Cert.ReferenceIdeal.main_arg3)) = (m ((c.tc : Thread nD τ).loc main_arg3)))
    (e4 : (m' ((c.tc : Thread Cert.ReferenceIdeal.nD Cert.ReferenceIdeal.τ).loc Cert.ReferenceIdeal.main_arg4)) = (m ((c.tc : Thread nD τ).loc main_arg4)))
    (e5 : (m' ((c.tc : Thread Cert.ReferenceIdeal.nD Cert.ReferenceIdeal.τ).loc Cert.ReferenceIdeal.main_arg5)) = (m ((c.tc : Thread nD τ).loc main_arg5)))
    (e6 : (m' ((c.tc : Thread Cert.ReferenceIdeal.nD Cert.ReferenceIdeal.τ).loc Cert.ReferenceIdeal.main_arg6)) = (m ((c.tc : Thread nD τ).loc main_arg6)))
    (e7 : (m' ((c.tc : Thread Cert.ReferenceIdeal.nD Cert.ReferenceIdeal.τ).loc Cert.ReferenceIdeal.main_arg7)) = (m ((c.tc : Thread nD τ).loc main_arg7)))
    (e8 : (m' ((c.tc : Thread Cert.ReferenceIdeal.nD Cert.ReferenceIdeal.τ).loc Cert.ReferenceIdeal.main_arg8)) = (m ((c.tc : Thread nD τ).loc main_arg8)))
    (e9 : (m' ((c.tc : Thread Cert.ReferenceIdeal.nD Cert.ReferenceIdeal.τ).loc Cert.ReferenceIdeal.main_arg9)) = (m ((c.tc : Thread nD τ).loc main_arg9)))
    (e10 : (m' ((c.tc : Thread Cert.ReferenceIdeal.nD Cert.ReferenceIdeal.τ).loc Cert.ReferenceIdeal.main_arg10)) = (m ((c.tc : Thread nD τ).loc main_arg10)))
    (e11 : (m' ((c.tc : Thread Cert.ReferenceIdeal.nD Cert.ReferenceIdeal.τ).loc Cert.ReferenceIdeal.main_arg11)) = (m ((c.tc : Thread nD τ).loc main_arg11))) :
    W5 m ρ c (Proc.devRef .tc main_v82) = Cert.ReferenceIdeal.Value.res_main_v62 m' c :=
  Cert.Bridge.pos_score (W4 m ρ c) m' c (user_side m ρ m' c e0 e2 e3) (item_side m ρ m' c e1 e4 e5)
    ((Boundary.W4_main_arg6 m ρ c).trans e6.symm) ((Boundary.W4_main_arg7 m ρ c).trans e7.symm)
    ((Boundary.W4_main_arg8 m ρ c).trans e8.symm) ((Boundary.W4_main_arg9 m ρ c).trans e9.symm)

/-- THE SECOND RESULT: the negative edges' scores. -/
theorem neg
    (e0 : (m' ((c.tc : Thread Cert.ReferenceIdeal.nD Cert.ReferenceIdeal.τ).loc Cert.ReferenceIdeal.main_arg0)) = (m ((c.tc : Thread nD τ).loc main_arg0)))
    (e1 : (m' ((c.tc : Thread Cert.ReferenceIdeal.nD Cert.ReferenceIdeal.τ).loc Cert.ReferenceIdeal.main_arg1)) = (m ((c.tc : Thread nD τ).loc main_arg1)))
    (e2 : (m' ((c.tc : Thread Cert.ReferenceIdeal.nD Cert.ReferenceIdeal.τ).loc Cert.ReferenceIdeal.main_arg2)) = (m ((c.tc : Thread nD τ).loc main_arg2)))
    (e3 : (m' ((c.tc : Thread Cert.ReferenceIdeal.nD Cert.ReferenceIdeal.τ).loc Cert.ReferenceIdeal.main_arg3)) = (m ((c.tc : Thread nD τ).loc main_arg3)))
    (e4 : (m' ((c.tc : Thread Cert.ReferenceIdeal.nD Cert.ReferenceIdeal.τ).loc Cert.ReferenceIdeal.main_arg4)) = (m ((c.tc : Thread nD τ).loc main_arg4)))
    (e5 : (m' ((c.tc : Thread Cert.ReferenceIdeal.nD Cert.ReferenceIdeal.τ).loc Cert.ReferenceIdeal.main_arg5)) = (m ((c.tc : Thread nD τ).loc main_arg5)))
    (e6 : (m' ((c.tc : Thread Cert.ReferenceIdeal.nD Cert.ReferenceIdeal.τ).loc Cert.ReferenceIdeal.main_arg6)) = (m ((c.tc : Thread nD τ).loc main_arg6)))
    (e7 : (m' ((c.tc : Thread Cert.ReferenceIdeal.nD Cert.ReferenceIdeal.τ).loc Cert.ReferenceIdeal.main_arg7)) = (m ((c.tc : Thread nD τ).loc main_arg7)))
    (e8 : (m' ((c.tc : Thread Cert.ReferenceIdeal.nD Cert.ReferenceIdeal.τ).loc Cert.ReferenceIdeal.main_arg8)) = (m ((c.tc : Thread nD τ).loc main_arg8)))
    (e9 : (m' ((c.tc : Thread Cert.ReferenceIdeal.nD Cert.ReferenceIdeal.τ).loc Cert.ReferenceIdeal.main_arg9)) = (m ((c.tc : Thread nD τ).loc main_arg9)))
    (e10 : (m' ((c.tc : Thread Cert.ReferenceIdeal.nD Cert.ReferenceIdeal.τ).loc Cert.ReferenceIdeal.main_arg10)) = (m ((c.tc : Thread nD τ).loc main_arg10)))
    (e11 : (m' ((c.tc : Thread Cert.ReferenceIdeal.nD Cert.ReferenceIdeal.τ).loc Cert.ReferenceIdeal.main_arg11)) = (m ((c.tc : Thread nD τ).loc main_arg11))) :
    W5 m ρ c (Proc.devRef .tc main_v85) = Cert.ReferenceIdeal.Value.res_main_v79 m' c :=
  Cert.Bridge.neg_score (W4 m ρ c) m' c (user_side m ρ m' c e0 e2 e3) (item_side m ρ m' c e1 e4 e5)
    ((Boundary.W4_main_arg6 m ρ c).trans e6.symm) ((Boundary.W4_main_arg7 m ρ c).trans e7.symm)
    ((Boundary.W4_main_arg8 m ρ c).trans e8.symm) ((Boundary.W4_main_arg9 m ρ c).trans e9.symm)
    ((Boundary.W4_main_arg10 m ρ c).trans e10.symm) ((Boundary.W4_main_arg11 m ρ c).trans e11.symm)

end Cert.Glue

end
-- ==== Proof.lean ====
/-
  The claims about the edge-scoring program and its reference.

  The program computes, for a bipartite graph of users and items, an affine map of each side's features (two tiled
  matrix products), averages the mapped rows along the edges into the opposite side's nodes, and scores every
  positive and negative edge by the dot product of its endpoints' averaged rows. The reference does the same on
  the host alone. Both programs run to the end from any memory, nothing faulting, the argument arrays unchanged:
  the tiled program's frames are the generated ones, the reference's frame is its generated run with the results
  dropped. Nothing was rewritten when the program was read on the extended reals, so there is nothing to preserve.
  On the extended reals the two programs' results are equal: the program's run names its two results as what its
  last stretch of host operations computes from the contents the second product leaves, and those are the
  reference's composed terms (the affine maps are the same sums of products plus bias; a change of float format is
  the identity; the in-degree counted in words or in floats is the same number). Equality here uses only that sums
  may be regrouped, so the finiteness of the inputs is never opened.
-/
import proofs.«111801_j5927054869109_2_alg».proof.Defs
import proofs.«111801_j5927054869109_2_alg».proof.Proof.Gen.Kernel
import proofs.«111801_j5927054869109_2_alg».proof.Proof.Gen.Kernel.Skeleton
import proofs.«111801_j5927054869109_2_alg».proof.Proof.Gen.Kernel.Launch
import proofs.«111801_j5927054869109_2_alg».proof.Proof.Gen.Kernel.Points
import proofs.«111801_j5927054869109_2_alg».proof.Proof.Gen.Kernel.Frame
import proofs.«111801_j5927054869109_2_alg».proof.Proof.Gen.KernelIdeal
import proofs.«111801_j5927054869109_2_alg».proof.Proof.Gen.KernelIdeal.Skeleton
import proofs.«111801_j5927054869109_2_alg».proof.Proof.Gen.KernelIdeal.Launch
import proofs.«111801_j5927054869109_2_alg».proof.Proof.Gen.KernelIdeal.Points
import proofs.«111801_j5927054869109_2_alg».proof.Proof.Gen.KernelIdeal.Frame
import proofs.«111801_j5927054869109_2_alg».proof.Proof.Gen.ReferenceIdeal
import proofs.«111801_j5927054869109_2_alg».proof.Proof.Gen.ReferenceIdeal.Run
import proofs.«111801_j5927054869109_2_alg».proof.Proof.Gen.Pre_finite_inputs
import proofs.«111801_j5927054869109_2_alg».proof.Proof.KernelRun
import proofs.«111801_j5927054869109_2_alg».proof.Proof.Glue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end, with the reference's composed terms as their results. -/
theorem algebraic : Cert.algebraic_KernelIdeal_ReferenceIdeal := by
  intro m ρ m' ρ' _ hagree
  refine ⟨fun c => Cert.ReferenceIdeal.Value.res_main_v62 m' c, fun c => Cert.ReferenceIdeal.Value.res_main_v79 m' c, ?_,
    Cert.ReferenceIdeal.Value.run (F := Ideal) m' ρ'⟩
  refine (θ_run Cert.KernelIdeal.defs _ _).mono (fun r h c => ⟨(h c).1.trans ?_, (h c).2.1.trans ?_, (h c).2.2⟩)
    (Cert.KernelIdeal.Results.run (F := Ideal) m ρ)
  · exact Cert.Glue.pos m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2
  · exact Cert.Glue.neg m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
